-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S1 : Shape := ⟨1, ![1]⟩
abbrev S131072x128 : Shape := ⟨2, ![131072, 128]⟩
abbrev S131072x256 : Shape := ⟨2, ![131072, 256]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S1 : S_.BroadcastsInDim S1 (![] : Fin 0 → Fin S1.rank)
  reducesTo_S1_S_d0 : S1.ReducesTo [0] S_
  bcast_S_S131072x128 : S_.BroadcastsInDim S131072x128 (![] : Fin 0 → Fin S131072x128.rank)
  reducesTo_S131072x128_S_d0_1 : S131072x128.ReducesTo [0, 1] S_
  bcast_S_S131072x256 : S_.BroadcastsInDim S131072x256 (![] : Fin 0 → Fin S131072x256.rank)
  reducesTo_S131072x256_S_d0_1 : S131072x256.ReducesTo [0, 1] S_

variable [Facts]

def fn_part1 {F : FTy → Type} [FloatOps F] (main_arg4 : FVec F S131072x256 .f32) (main_v13 : IVec S_ 1) (main_v16 : IVec S131072x128 1) : IVec S_ 1 :=
  let main_c_5 : IVec S_ 1 := constantI S_ 1 1#1
  let main_v17 : IVec S_ 1 := (fun x v => Host.reduce IntOp.andi x v reducesTo_S131072x128_S_d0_1 h_S_) main_v16 main_c_5
  let main_v18 : IVec S_ 1 := andi main_v13 main_v17
  let main_v19 : FVec F S131072x256 .f32 := Host.absf main_arg4
  let main_cst_6 : FVec F S_ .f32 := constant S_ .f32 0x7F800000#32
  let main_v20 : FVec F S131072x256 .f32 := broadcastInDim S131072x256 ![] bcast_S_S131072x256 main_cst_6
  let main_v21 : IVec S131072x256 1 := cmpf .olt main_v19 main_v20
  let main_c_7 : IVec S_ 1 := constantI S_ 1 1#1
  let main_v22 : IVec S_ 1 := (fun x v => Host.reduce IntOp.andi x v reducesTo_S131072x256_S_d0_1 h_S_) main_v21 main_c_7
  let main_v23 : IVec S_ 1 := andi main_v18 main_v22
  main_v23

def fn {F : FTy → Type} [FloatOps F] (main_arg0 : FVec F S131072x1 .f32) (main_arg1 : FVec F S1 .f32) (main_arg2 : FVec F S1 .f32) (main_arg3 : FVec F S131072x128 .f32) (main_arg4 : FVec F S131072x256 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S131072x128 .f32 := Host.absf main_arg3
  let main_cst_4 : FVec F S_ .f32 := constant S_ .f32 0x7F800000#32
  let main_v15 : FVec F S131072x128 .f32 := broadcastInDim S131072x128 ![] bcast_S_S131072x128 main_cst_4
  let main_v16 : IVec S131072x128 1 := cmpf .olt main_v14 main_v15
  fn_part1 (F := F) main_arg4 main_v13 main_v16
-- ==== Kernel.lean ====
abbrev S131072x1 : Shape := ⟨2, ![131072, 1]⟩
abbrev S1 : Shape := ⟨1, ![1]⟩
abbrev S131072x128 : Shape := ⟨2, ![131072, 128]⟩
abbrev S131072x256 : Shape := ⟨2, ![131072, 256]⟩
abbrev S2x1x256 : Shape := ⟨3, ![2, 1, 256]⟩
abbrev S2x1x128 : Shape := ⟨3, ![2, 1, 128]⟩
abbrev S8192x256 : Shape := ⟨2, ![8192, 256]⟩
abbrev S8192x128 : Shape := ⟨2, ![8192, 128]⟩
abbrev S1x1x256 : Shape := ⟨3, ![1, 1, 256]⟩
abbrev S1x1x128 : Shape := ⟨3, ![1, 1, 128]⟩
abbrev S8192x1 : Shape := ⟨2, ![8192, 1]⟩
abbrev S1x256 : Shape := ⟨2, ![1, 256]⟩
abbrev S256 : Shape := ⟨1, ![256]⟩
abbrev S1x128 : Shape := ⟨2, ![1, 128]⟩
abbrev S128 : Shape := ⟨1, ![128]⟩
abbrev S_ : Shape := ⟨0, ![]⟩

abbrev nBuf : Space → Nat
  | .hbm => 30
  | .vmem => 10
  | .smem => 0
  | _ => 0

abbrev bufTy : (tb : Table) → Fin (tcTables nBuf tb) → BufTy
  | .hbm, ⟨0, _⟩ => ⟨S131072x1, .f32⟩
  | .hbm, ⟨1, _⟩ => ⟨S1, .f32⟩
  | .hbm, ⟨2, _⟩ => ⟨S1, .f32⟩
  | .hbm, ⟨3, _⟩ => ⟨S131072x128, .f32⟩
  | .hbm, ⟨4, _⟩ => ⟨S131072x256, .f32⟩
  | .hbm, ⟨5, _⟩ => ⟨S2x1x256, .f32⟩
  | .hbm, ⟨6, _⟩ => ⟨S2x1x128, .f32⟩
  | .hbm, ⟨7, _⟩ => ⟨S2x1x256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S8192x128, .f32⟩
  | .local _ .vmem, ⟨3, _⟩ => ⟨S8192x128, .f32⟩
  | .local _ .vmem, ⟨4, _⟩ => ⟨S1x1x256, .f32⟩
  | .local _ .vmem, ⟨5, _⟩ => ⟨S1x1x256, .f32⟩
  | .local _ .vmem, ⟨6, _⟩ => ⟨S1x1x128, .f32⟩
  | .local _ .vmem, ⟨7, _⟩ => ⟨S1x1x128, .f32⟩
  | .local _ .vmem, ⟨8, _⟩ => ⟨S1x1x256, .f32⟩
  | .local _ .vmem, ⟨9, _⟩ => ⟨S1x1x256, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1x256_S1x1x256_0_0_0 : ∀ a, (![0, 0, 0] : Fin 3 → Nat) a + S1x1x256.size a ≤ S1x1x256.size a
  h_S1x1x256 : 0 < S1x1x256.numel
  inb_S1x1x128_S1x1x128_0_0_0 : ∀ a, (![0, 0, 0] : Fin 3 → Nat) a + S1x1x128.size a ≤ S1x1x128.size a
  h_S1x1x128 : 0 < S1x1x128.numel
  inb_S8192x256_S8192x256_0_0 : ∀ a, (![0, 0] : Fin 2 → Nat) a + S8192x256.size a ≤ S8192x256.size a
  h_S8192x256 : 0 < S8192x256.numel
  inb_S8192x128_S8192x128_0_0 : ∀ a, (![0, 0] : Fin 2 → Nat) a + S8192x128.size a ≤ S8192x128.size a
  h_S8192x128 : 0 < S8192x128.numel
  slices_S8192x128_o0_0_S8192x1 : S8192x128.Slices ![0, 0] S8192x1
  shapeCasts_S1x1x256_S1x256 : S1x1x256.ShapeCasts S1x256
  reduces_S8192x256_S256 : S8192x256.Reduces [0] S256
  shapeCasts_S256_S1x256 : S256.ShapeCasts S1x256
  shapeCasts_S1x256_S1x1x256 : S1x256.ShapeCasts S1x1x256
  shapeCasts_S1x1x128_S1x128 : S1x1x128.ShapeCasts S1x128
  reduces_S8192x128_S128 : S8192x128.Reduces [0] S128
  shapeCasts_S128_S1x128 : S128.ShapeCasts S1x128
  shapeCasts_S1x128_S1x1x128 : S1x128.ShapeCasts S1x1x128
  broadcasts_S8192x1_S8192x256 : S8192x1.Broadcasts S8192x256
  reducesTo_S2x1x256_S256_d0_1 : S2x1x256.ReducesTo [0, 1] S256
  h_S_ : 0 < S_.numel
  reducesTo_S2x1x128_S128_d0_1 : S2x1x128.ReducesTo [0, 1] S128
  bcast_S_S256 : S_.BroadcastsInDim S256 (![] : Fin 0 → Fin S256.rank)
  slices_S128_S1_0 : S128.Slices ![0] S1
  shapeCasts_S1_S_ : S1.ShapeCasts S_
  reducesTo_S256_S_d0 : S256.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S2x1x256.size a
  hwx0_2 : ∀ i : grid0.Coords, EltTy.bits .f32 = 32 ∨ (Rect.block (s := S2x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)

variable [Facts₀]

abbrev win0_0 : Pipeline.Window sig grid0 :=
  Pipeline.Window.ofSpec (Memref.whole main_arg4) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1 : Shape := ⟨2, ![131072, 1]⟩
abbrev S1 : Shape := ⟨1, ![1]⟩
abbrev S131072x128 : Shape := ⟨2, ![131072, 128]⟩
abbrev S131072x256 : Shape := ⟨2, ![131072, 256]⟩
abbrev S_ : Shape := ⟨0, ![]⟩
abbrev S256 : Shape := ⟨1, ![256]⟩
abbrev S1x256 : Shape := ⟨2, ![1, 256]⟩
abbrev S128 : Shape := ⟨1, ![128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S131072x1, .f32⟩
  | .hbm, ⟨1, _⟩ => ⟨S1, .f32⟩
  | .hbm, ⟨2, _⟩ => ⟨S1, .f32⟩
  | .hbm, ⟨3, _⟩ => ⟨S131072x128, .f32⟩
  | .hbm, ⟨4, _⟩ => ⟨S131072x256, .f32⟩
  | .hbm, ⟨5, _⟩ => ⟨S_, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S1x256, .f32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S131072x128, .f32⟩
  | .hbm, ⟨20, _⟩ => ⟨S131072x128, .f32⟩
  | .hbm, ⟨21, _⟩ => ⟨S131072x1, .f32⟩
  | .hbm, ⟨22, _⟩ => ⟨S131072x256, .f32⟩
  | .hbm, ⟨23, _⟩ => ⟨S131072x256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  reducesTo_S131072x256_S256_d0 : S131072x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  reducesTo_S131072x128_S128_d0 : S131072x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  slices_S131072x128_S131072x1_0_0 : S131072x128.Slices ![0, 0] S131072x1
  bcast_S131072x1_S131072x256_0_1 : S131072x1.BroadcastsInDim S131072x256 (![0, 1] : Fin 2 → Fin S131072x256.rank)
  reducesTo_S256_S_d0 : S256.ReducesTo [0] S_

variable [Facts₀]

class Facts : Prop extends Facts₀ where

variable [Facts]
-- ==== Proof.KernelPieces.lean ====
import proofs.«105265_j22574348108101_2_alg».proof.Proof.Gen.KernelIdeal.Frame
import Idealize.ShloMosaic.Lib.Pipeline.Value
import Idealize.ShloMosaic.Lib.Tactic

/-! What one run of the kernel body leaves in the three accumulator blocks, as values.

At a core's first step the body stores a zero block into each accumulator, reads it back and adds the step's
contribution; at every later step it adds the contribution to what the step before left. Each accumulator's block is
covered by the body's last store to it, so its contents are that store's value: the running block (zero, or the
previous contents) plus the lane sums of the step's input tiles. -/

noncomputable section

open Idealize.ShloMosaic Idealize.ShloMosaic.TcCoe Idealize.SL.Sem
open Idealize.ShloMosaic.Pipeline (Dat)

namespace Cov.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A later step: the previous contents plus this step's sums -/

/-- The error column sums: previous block plus the lane sums of the error tile. -/
theorem out_B_2 (c : Dev nD) (i : grid0.Coords) (a2 : Memref sig .tc .vmem S8192x256 .f32) (h2 : a2.IsWhole) (a3 : Memref sig .tc .vmem S8192x128 .f32) (h3 : a3.IsWhole) (a4 : Memref sig .tc .vmem S1x1x256 .f32) (h4 : a4.IsWhole) (a5 : Memref sig .tc .vmem S1x1x128 .f32) (h5 : a5.IsWhole) (a6 : Memref sig .tc .vmem S1x1x256 .f32) (h6 : a6.IsWhole) (hc : ¬cond0_0 i)
    (x0 : Vec F S8192x256 .f32) (x1 : Vec F S8192x128 .f32) (xo2 : Vec F S1x1x256 .f32) (xo3 : Vec F S1x1x128 .f32) (xo4 : Vec F S1x1x256 .f32) :
    out0_B_2 c i a2 h2 a3 h3 a4 h4 a5 h5 a6 h6 hc x0 x1 xo2 xo3 xo4 = k0_pay5 x0 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S8192x256) hz2, View.ld_unit_zero (S := S8192x128) hz2, View.ld_unit_zero (S := S1x1x256) hz3, View.ld_unit_zero (S := S1x1x128) hz3]

/-- The embedding column sums: previous block plus the lane sums of the embedding tile. -/
theorem out_B_3 (c : Dev nD) (i : grid0.Coords) (a2 : Memref sig .tc .vmem S8192x256 .f32) (h2 : a2.IsWhole) (a3 : Memref sig .tc .vmem S8192x128 .f32) (h3 : a3.IsWhole) (a4 : Memref sig .tc .vmem S1x1x256 .f32) (h4 : a4.IsWhole) (a5 : Memref sig .tc .vmem S1x1x128 .f32) (h5 : a5.IsWhole) (a6 : Memref sig .tc .vmem S1x1x256 .f32) (h6 : a6.IsWhole) (hc : ¬cond0_0 i)
    (x0 : Vec F S8192x256 .f32) (x1 : Vec F S8192x128 .f32) (xo2 : Vec F S1x1x256 .f32) (xo3 : Vec F S1x1x128 .f32) (xo4 : Vec F S1x1x256 .f32) :
    out0_B_3 c i a2 h2 a3 h3 a4 h4 a5 h5 a6 h6 hc x0 x1 xo2 xo3 xo4 = k0_pay6 x1 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S8192x256) hz2, View.ld_unit_zero (S := S8192x128) hz2, View.ld_unit_zero (S := S1x1x256) hz3, View.ld_unit_zero (S := S1x1x128) hz3]

/-- The product sums: previous block plus the lane sums of the error tile times the embedding tile's first column. -/
theorem out_B_4 (c : Dev nD) (i : grid0.Coords) (a2 : Memref sig .tc .vmem S8192x256 .f32) (h2 : a2.IsWhole) (a3 : Memref sig .tc .vmem S8192x128 .f32) (h3 : a3.IsWhole) (a4 : Memref sig .tc .vmem S1x1x256 .f32) (h4 : a4.IsWhole) (a5 : Memref sig .tc .vmem S1x1x128 .f32) (h5 : a5.IsWhole) (a6 : Memref sig .tc .vmem S1x1x256 .f32) (h6 : a6.IsWhole) (hc : ¬cond0_0 i)
    (x0 : Vec F S8192x256 .f32) (x1 : Vec F S8192x128 .f32) (xo2 : Vec F S1x1x256 .f32) (xo3 : Vec F S1x1x128 .f32) (xo4 : Vec F S1x1x256 .f32) :
    out0_B_4 c i a2 h2 a3 h3 a4 h4 a5 h5 a6 h6 hc x0 x1 xo2 xo3 xo4 = k0_pay1 (k0_pay7 x0 x1 xo4) := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S8192x256) hz2, View.ld_unit_zero (S := S8192x128) hz2, View.ld_unit_zero (S := S1x1x256) hz3, View.ld_unit_zero (S := S1x1x128) hz3]

/-! ## A core's first step: the same over the zero block just stored -/

/-- The error column sums over a zero block. -/
theorem out_A_2 (c : Dev nD) (i : grid0.Coords) (a2 : Memref sig .tc .vmem S8192x256 .f32) (h2 : a2.IsWhole) (a3 : Memref sig .tc .vmem S8192x128 .f32) (h3 : a3.IsWhole) (a4 : Memref sig .tc .vmem S1x1x256 .f32) (h4 : a4.IsWhole) (a5 : Memref sig .tc .vmem S1x1x128 .f32) (h5 : a5.IsWhole) (a6 : Memref sig .tc .vmem S1x1x256 .f32) (h6 : a6.IsWhole) (hc : cond0_0 i)
    (x0 : Vec F S8192x256 .f32) (x1 : Vec F S8192x128 .f32) :
    out0_A_2 c i a2 h2 a3 h3 a4 h4 a5 h5 a6 h6 hc x0 x1 = k0_pay5 x0 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread, View.ld_unit_zero (S := S8192x256) hz2, View.ld_unit_zero (S := S8192x128) hz2, View.ld_unit_zero (S := S1x1x256) hz3, View.ld_unit_zero (S := S1x1x128) hz3]

/-- The embedding column sums over a zero block. -/
theorem out_A_3 (c : Dev nD) (i : grid0.Coords) (a2 : Memref sig .tc .vmem S8192x256 .f32) (h2 : a2.IsWhole) (a3 : Memref sig .tc .vmem S8192x128 .f32) (h3 : a3.IsWhole) (a4 : Memref sig .tc .vmem S1x1x256 .f32) (h4 : a4.IsWhole) (a5 : Memref sig .tc .vmem S1x1x128 .f32) (h5 : a5.IsWhole) (a6 : Memref sig .tc .vmem S1x1x256 .f32) (h6 : a6.IsWhole) (hc : cond0_0 i)
    (x0 : Vec F S8192x256 .f32) (x1 : Vec F S8192x128 .f32) :
    out0_A_3 c i a2 h2 a3 h3 a4 h4 a5 h5 a6 h6 hc x0 x1 = k0_pay6 x1 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread, View.ld_unit_zero (S := S8192x256) hz2, View.ld_unit_zero (S := S8192x128) hz2, View.ld_unit_zero (S := S1x1x256) hz3, View.ld_unit_zero (S := S1x1x128) hz3]

/-- The product sums over a zero block. -/
theorem out_A_4 (c : Dev nD) (i : grid0.Coords) (a2 : Memref sig .tc .vmem S8192x256 .f32) (h2 : a2.IsWhole) (a3 : Memref sig .tc .vmem S8192x128 .f32) (h3 : a3.IsWhole) (a4 : Memref sig .tc .vmem S1x1x256 .f32) (h4 : a4.IsWhole) (a5 : Memref sig .tc .vmem S1x1x128 .f32) (h5 : a5.IsWhole) (a6 : Memref sig .tc .vmem S1x1x256 .f32) (h6 : a6.IsWhole) (hc : cond0_0 i)
    (x0 : Vec F S8192x256 .f32) (x1 : Vec F S8192x128 .f32) :
    out0_A_4 c i a2 h2 a3 h3 a4 h4 a5 h5 a6 h6 hc x0 x1 = k0_pay1 (k0_pay7 x0 x1 (k0_pay4 (F := F))) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread, View.ld_unit_zero (S := S8192x256) hz2, View.ld_unit_zero (S := S8192x128) hz2, View.ld_unit_zero (S := S1x1x256) hz3, View.ld_unit_zero (S := S1x1x128) hz3]

end Cov.Pieces

end
-- ==== Proof.KernelStep.lean ====
import proofs.«105265_j22574348108101_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-! One step's contribution to each accumulator, entry by entry, at the ideal values.

A step holds an error tile x0 of 8192 rows by 256 columns and an embedding tile x1 of 8192 rows by 128 columns.
Entry o of the new error block is the old entry plus the sum over the tile's rows r of x0 r o; the embedding block
likewise with x1; entry o of the new product block is the old entry plus the sum over r of x0 r o times x1 r 0,
the first column of the embedding tile spread along each row. -/

noncomputable section

open scoped BigOperators

namespace Cov.Step

open Idealize.ShloMosaic Idealize.ShloMosaic.ValueIdx
open Cert.KernelIdeal Cert.KernelIdeal.Gen

/-- The sums down the 8192 rows of a tile with C columns, laid out as one row, read at column o. -/
theorem lanesum_row {C : ℕ} (src : FVec Ideal ⟨2, ![8192, C]⟩ .f32) (h : Shape.Reduces ⟨2, ![8192, C]⟩ [0] ⟨1, ![C]⟩)
    (hφ : FKind.Formats .f32) (hacc : (0x00000000#32 : BitVec 32) = FKind.add.neutral .f32 hφ)
    (hc : (⟨1, ![C]⟩ : Shape).ShapeCasts ⟨2, ![1, C]⟩) (u : Fin 1) (o : Fin C) :
    shapeCast ⟨2, ![1, C]⟩ (multiReduction (F := Ideal) .add [0] ⟨1, ![C]⟩ src 0x00000000#32 h hφ hacc) hc (ix2 u o)
      = ∑ r : Fin 8192, src (ix2 r o) :=
  (shapeCast_a_1a_apply _ hc u o).trans ((Ideal.multiReduction_add_single src _ h hφ hacc (ix1 o)).trans
    (Finset.sum_congr rfl fun r _ => congrArg src (funext fun a => Fin.ext (by match a with | ⟨0, _⟩ => rfl | ⟨1, _⟩ => rfl))))

/-- The error block after a step: the old entry plus the tile's column sum. -/
theorem err_apply (x0 : Vec Ideal S8192x256 .f32) (xo : Vec Ideal S1x1x256 .f32) (o : Fin 256) :
    k0_pay5 (F := Ideal) x0 xo (ix3 (0 : Fin 1) (0 : Fin 1) o)
      = xo (ix3 (0 : Fin 1) (0 : Fin 1) o) + ∑ r : Fin 8192, x0 (ix2 r o) := by
  unfold k0_pay5
  refine (shapeCast_ab_1ab_apply _ _ (0 : Fin 1) (0 : Fin 1) o).trans ?_
  refine (addf_apply _ _ _).trans ?_
  refine congrArg₂ (· + ·) ?_ ?_
  · exact shapeCast_1ab_ab_apply _ _ (0 : Fin 1) o
  · exact lanesum_row _ _ _ _ _ (0 : Fin 1) o

/-- The embedding block after a step: the old entry plus the tile's column sum. -/
theorem emb_apply (x1 : Vec Ideal S8192x128 .f32) (xo : Vec Ideal S1x1x128 .f32) (d : Fin 128) :
    k0_pay6 (F := Ideal) x1 xo (ix3 (0 : Fin 1) (0 : Fin 1) d)
      = xo (ix3 (0 : Fin 1) (0 : Fin 1) d) + ∑ r : Fin 8192, x1 (ix2 r d) := by
  unfold k0_pay6
  refine (shapeCast_ab_1ab_apply _ _ (0 : Fin 1) (0 : Fin 1) d).trans ?_
  refine (addf_apply _ _ _).trans ?_
  refine congrArg₂ (· + ·) ?_ ?_
  · exact shapeCast_1ab_ab_apply _ _ (0 : Fin 1) d
  · exact lanesum_row _ _ _ _ _ (0 : Fin 1) d

/-- The product block after a step: the old entry plus the sum over the tile's rows of the error entry times the
    embedding tile's first column. -/
theorem prod_apply (x0 : Vec Ideal S8192x256 .f32) (x1 : Vec Ideal S8192x128 .f32) (xo : Vec Ideal S1x1x256 .f32) (o : Fin 256) :
    k0_pay1 (F := Ideal) (k0_pay7 x0 x1 xo) (ix3 (0 : Fin 1) (0 : Fin 1) o)
      = xo (ix3 (0 : Fin 1) (0 : Fin 1) o) + ∑ r : Fin 8192, x0 (ix2 r o) * x1 (ix2 r (0 : Fin 128)) := by
  unfold k0_pay1 k0_pay7
  refine (shapeCast_ab_1ab_apply _ _ (0 : Fin 1) (0 : Fin 1) o).trans ?_
  refine (addf_apply _ _ _).trans ?_
  refine congrArg₂ (· + ·) ?_ ?_
  · exact shapeCast_1ab_ab_apply _ _ (0 : Fin 1) o
  · refine (lanesum_row _ _ _ _ _ (0 : Fin 1) o).trans ?_
    refine Finset.sum_congr rfl fun r _ => ?_
    refine (mulf_apply _ _ _).trans ?_
    refine congrArg (x0 (ix2 r o) * ·) ?_
    refine (broadcastTo_apply _ _ (ix2 r o) (ix2 r (0 : Fin 1)) (fun ax => ?_)).trans ?_
    · match ax with
      | ⟨0, _⟩ => rfl
      | ⟨1, _⟩ => rfl
    · exact slice2_axis1_apply 0 x1 _ r (0 : Fin 1) (0 : Fin 128) rfl

end Cov.Step

end
-- ==== Proof.KernelBlocks.lean ====
import proofs.«105265_j22574348108101_2_alg».proof.Proof.Gen.KernelIdeal.Frame
import Idealize.ShloMosaic.Lib.Pipeline.Value
import Idealize.ShloMosaic.Lib.ValueIdx

/-! The input tiles of a grid step, and the running total within one core's run of eight steps.

Step t (0 to 15; core t / 8, inner step t % 8) reads rows t * 8192 to t * 8192 + 8191 of both matrices.
Within a core's eight steps an accumulator that starts from zero at the first step and adds a contribution T t at
step t holds, after step n, the sum of T over the steps of that core up to n. -/

noncomputable section

open scoped BigOperators

namespace Cov.Blocks

open Idealize.ShloMosaic Idealize.ShloMosaic.TcCoe Idealize.ShloMosaic.ValueIdx Idealize.SL.Sem
open Cert.KernelIdeal Cert.KernelIdeal.Gen

/-! ## The running total over a core's steps -/

/-- The contributions T of the steps of step n's core, from that core's first step up to n. -/
def acc (T : ℕ → EReal) (n : ℕ) : EReal := ∑ j ∈ Finset.range (n % 8 + 1), T (n / 8 * 8 + j)

/-- At a core's first step the total is that step's contribution. -/
theorem acc_first (T : ℕ → EReal) (n : ℕ) (h : n % 8 = 0) : acc T n = T n := by
  unfold acc
  rw [h, Nat.zero_add, Finset.sum_range_one]
  congr 1
  omega

/-- At a later step it is the total after the step before plus this step's contribution. -/
theorem acc_next (T : ℕ → EReal) (n : ℕ) (h : ¬n % 8 = 0) : acc T n = acc T (n - 1) + T n := by
  unfold acc
  rw [Finset.sum_range_succ]
  have h1 : (n - 1) % 8 + 1 = n % 8 := by omega
  have h2 : (n - 1) / 8 = n / 8 := by omega
  rw [h1, h2]
  congr 2
  omega

/-- After a core's last step it is the sum over the core's eight steps. -/
theorem acc_last (T : ℕ → EReal) (c : ℕ) : acc T (c * 8 + 7) = ∑ j : Fin 8, T (c * 8 + j.val) := by
  unfold acc
  have h1 : (c * 8 + 7) % 8 + 1 = 8 := by omega
  have h2 : (c * 8 + 7) / 8 = c := by omega
  rw [h1, h2, Fin.sum_univ_eq_sum_range (fun j => T (c * 8 + j)) 8]

/-! ## The two matrices by row number -/

variable (m : (ℓ : Loc nD τ sig) → Buf (Elt Ideal) ℓ)

/-- The error matrix as the region finds it. -/
def errs (c : Dev nD) : S131072x256.Idx → EReal := m ((c.tc : Thread nD τ).loc main_arg4)
/-- The embedding matrix as the region finds it. -/
def embs (c : Dev nD) : S131072x128.Idx → EReal := m ((c.tc : Thread nD τ).loc main_arg3)

/-- Entry (k, o) of the error matrix by row NUMBER (zero past the last row, which no step reads). -/
def rowE (c : Dev nD) (o : Fin 256) (k : ℕ) : EReal := if h : k < 131072 then errs m c (ix2 ⟨k, h⟩ o) else 0
/-- Entry (k, d) of the embedding matrix by row number. -/
def rowG (c : Dev nD) (d : Fin 128) (k : ℕ) : EReal := if h : k < 131072 then embs m c (ix2 ⟨k, h⟩ d) else 0

/-! ## A step's tiles are rows t * 8192 onwards -/

theorem idx_err : ∀ t : Fin cfg0.N, win0_0.index t 0 = t.val ∧ win0_0.index t 1 = 0 :=
  (by decide +kernel : ∀ t : Fin grid0.N, win0_0.index t 0 = t.val ∧ win0_0.index t 1 = 0)
theorem idx_emb : ∀ t : Fin cfg0.N, win0_1.index t 0 = t.val ∧ win0_1.index t 1 = 0 :=
  (by decide +kernel : ∀ t : Fin grid0.N, win0_1.index t 0 = t.val ∧ win0_1.index t 1 = 0)

/-- The error tile of step t, with its plain type: 8192 rows by 256 columns. -/
def etile (c : Dev nD) (t : Fin cfg0.N) : Vec Ideal S8192x256 .f32 := iblk m c 0 t
/-- The embedding tile of step t: 8192 rows by 128 columns. -/
def gtile (c : Dev nD) (t : Fin cfg0.N) : Vec Ideal S8192x128 .f32 := iblk m c 1 t

/-- The error tile of step t at (r, o) is the matrix at row t * 8192 + r. -/
theorem etile_apply (c : Dev nD) (t : Fin cfg0.N) (r : Fin 8192) (o : Fin 256) :
    etile m c t (ix2 r o) = rowE m c o (t.val * 8192 + r.val) := by
  unfold etile
  have hN : t.val < 16 := lt_of_lt_of_eq t.isLt (show cfg0.N = 16 from N_0)
  have hr : r.val < 8192 := r.isLt
  have hk : t.val * 8192 + r.val < 131072 := by omega
  unfold rowE errs
  rw [dif_pos hk]
  unfold iblk
  rw [View.read_apply]
  show V m c main_arg4 _ = m (c.tc.loc main_arg4) _
  unfold V
  congr 1
  funext a
  apply Fin.ext
  match a with
  | ⟨0, _⟩ => show win0_0.index t 0 * 8192 + 1 * r.val = t.val * 8192 + r.val; rw [(idx_err t).1]; omega
  | ⟨1, _⟩ => show win0_0.index t 1 * 256 + 1 * o.val = o.val; rw [(idx_err t).2]; omega

/-- The embedding tile of step t at (r, d) is the matrix at row t * 8192 + r. -/
theorem gtile_apply (c : Dev nD) (t : Fin cfg0.N) (r : Fin 8192) (d : Fin 128) :
    gtile m c t (ix2 r d) = rowG m c d (t.val * 8192 + r.val) := by
  unfold gtile
  have hN : t.val < 16 := lt_of_lt_of_eq t.isLt (show cfg0.N = 16 from N_0)
  have hr : r.val < 8192 := r.isLt
  have hk : t.val * 8192 + r.val < 131072 := by omega
  unfold rowG embs
  rw [dif_pos hk]
  unfold iblk
  rw [View.read_apply]
  show V m c main_arg3 _ = m (c.tc.loc main_arg3) _
  unfold V
  congr 1
  funext a
  apply Fin.ext
  match a with
  | ⟨0, _⟩ => show win0_1.index t 0 * 8192 + 1 * r.val = t.val * 8192 + r.val; rw [(idx_emb t).1]; omega
  | ⟨1, _⟩ => show win0_1.index t 1 * 128 + 1 * d.val = d.val; rw [(idx_emb t).2]; omega

end Cov.Blocks

end
-- ==== Proof.KernelAccum.lean ====
import proofs.«105265_j22574348108101_2_alg».proof.Proof.KernelPieces
import proofs.«105265_j22574348108101_2_alg».proof.Proof.KernelStep
import proofs.«105265_j22574348108101_2_alg».proof.Proof.KernelBlocks

/-! What the three accumulator blocks hold after each grid step, entry by entry.

With TE o k the sum of column o over the 8192 rows of tile k of the error matrix, TG d k the same for the embedding
matrix and TP o k the sum over those rows of the error entry times the embedding's column 0, the blocks after step n
hold the running totals of TE, TG and TP over the steps of n's core up to n: by induction on the step, a core's
first step starting from the zero block and every later step adding to what the step before left. -/

noncomputable section

open scoped BigOperators

namespace Cov.Accum

open Idealize.ShloMosaic Idealize.ShloMosaic.TcCoe Idealize.ShloMosaic.ValueIdx Idealize.SL.Sem
open Cert.KernelIdeal Cert.KernelIdeal.Gen Cov.Blocks

variable (m : (ℓ : Loc nD τ sig) → Buf (Elt Ideal) ℓ)

/-- Column o of the error matrix summed over the rows of tile k. -/
def TE (c : Dev nD) (o : Fin 256) (k : ℕ) : EReal := ∑ r : Fin 8192, rowE m c o (k * 8192 + r.val)
/-- Column d of the embedding matrix summed over the rows of tile k. -/
def TG (c : Dev nD) (d : Fin 128) (k : ℕ) : EReal := ∑ r : Fin 8192, rowG m c d (k * 8192 + r.val)
/-- The products of column o of the error matrix with column 0 of the embedding matrix over the rows of tile k. -/
def TP (c : Dev nD) (o : Fin 256) (k : ℕ) : EReal :=
  ∑ r : Fin 8192, rowE m c o (k * 8192 + r.val) * rowG m c (0 : Fin 128) (k * 8192 + r.val)

theorem zero_err (i : S1x1x256.Idx) : k0_pay2 (F := Ideal) i = 0 := Ideal.ofBits_zero_f32
theorem zero_emb (i : S1x1x128.Idx) : k0_pay3 (F := Ideal) i = 0 := Ideal.ofBits_zero_f32
theorem zero_prod (i : S1x1x256.Idx) : k0_pay4 (F := Ideal) i = 0 := Ideal.ofBits_zero_f32

/-- A core's first step leaves its own tile sums. -/
theorem first_step (c : Dev nD) (t : Fin cfg0.N) (h0 : t.val % 8 = 0) :
    (∀ o : Fin 256, (outsAt0 m c t.val t.isLt).1 (ix3 (0 : Fin 1) (0 : Fin 1) o) = TE m c o t.val)
    ∧ (∀ d : Fin 128, (outsAt0 m c t.val t.isLt).2.1 (ix3 (0 : Fin 1) (0 : Fin 1) d) = TG m c d t.val)
    ∧ (∀ o : Fin 256, (outsAt0 m c t.val t.isLt).2.2 (ix3 (0 : Fin 1) (0 : Fin 1) o) = TP m c o t.val) := by
  rw [outsAt0_A m c t h0]
  dsimp only
  refine ⟨fun o => ?_, fun d => ?_, fun o => ?_⟩
  · refine (congrFun (Pieces.out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) _).trans ?_
    refine (Step.err_apply (etile m c t) (k0_pay2 (F := Ideal)) o).trans ?_
    refine (congrArg₂ (· + ·) (zero_err _) (Finset.sum_congr rfl fun r _ => Blocks.etile_apply m c t r o)).trans ?_
    exact zero_add _
  · refine (congrFun (Pieces.out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) _).trans ?_
    refine (Step.emb_apply (gtile m c t) (k0_pay3 (F := Ideal)) d).trans ?_
    refine (congrArg₂ (· + ·) (zero_emb _) (Finset.sum_congr rfl fun r _ => Blocks.gtile_apply m c t r d)).trans ?_
    exact zero_add _
  · refine (congrFun (Pieces.out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) _).trans ?_
    refine (Step.prod_apply (etile m c t) (gtile m c t) (k0_pay4 (F := Ideal)) o).trans ?_
    refine (congrArg₂ (· + ·) (zero_prod _) (Finset.sum_congr rfl fun r _ =>
      congrArg₂ (· * ·) (Blocks.etile_apply m c t r o) (Blocks.gtile_apply m c t r (0 : Fin 128)))).trans ?_
    exact zero_add _

/-- A later step adds its tile sums to what the step before left. -/
theorem later_step (c : Dev nD) (t : Fin cfg0.N) (h0 : ¬t.val % 8 = 0) :
    (∀ o : Fin 256, (outsAt0 m c t.val t.isLt).1 (ix3 (0 : Fin 1) (0 : Fin 1) o)
        = (outsAt0 m c (t.val - 1) (Nat.lt_of_le_of_lt (Nat.sub_le _ _) t.isLt)).1 (ix3 (0 : Fin 1) (0 : Fin 1) o) + TE m c o t.val)
    ∧ (∀ d : Fin 128, (outsAt0 m c t.val t.isLt).2.1 (ix3 (0 : Fin 1) (0 : Fin 1) d)
        = (outsAt0 m c (t.val - 1) (Nat.lt_of_le_of_lt (Nat.sub_le _ _) t.isLt)).2.1 (ix3 (0 : Fin 1) (0 : Fin 1) d) + TG m c d t.val)
    ∧ (∀ o : Fin 256, (outsAt0 m c t.val t.isLt).2.2 (ix3 (0 : Fin 1) (0 : Fin 1) o)
        = (outsAt0 m c (t.val - 1) (Nat.lt_of_le_of_lt (Nat.sub_le _ _) t.isLt)).2.2 (ix3 (0 : Fin 1) (0 : Fin 1) o) + TP m c o t.val) := by
  rw [outsAt0_B m c t h0]
  dsimp only
  generalize outsAt0 m c (t.val - 1) _ = prev
  refine ⟨fun o => ?_, fun d => ?_, fun o => ?_⟩
  · refine (congrFun (Pieces.out_B_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) prev.1 prev.2.1 prev.2.2) _).trans ?_
    refine (Step.err_apply (etile m c t) prev.1 o).trans ?_
    exact congrArg (prev.1 (ix3 (0 : Fin 1) (0 : Fin 1) o) + ·) (Finset.sum_congr rfl fun r _ => Blocks.etile_apply m c t r o)
  · refine (congrFun (Pieces.out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) prev.1 prev.2.1 prev.2.2) _).trans ?_
    refine (Step.emb_apply (gtile m c t) prev.2.1 d).trans ?_
    exact congrArg (prev.2.1 (ix3 (0 : Fin 1) (0 : Fin 1) d) + ·) (Finset.sum_congr rfl fun r _ => Blocks.gtile_apply m c t r d)
  · refine (congrFun (Pieces.out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) prev.1 prev.2.1 prev.2.2) _).trans ?_
    refine (Step.prod_apply (etile m c t) (gtile m c t) prev.2.2 o).trans ?_
    exact congrArg (prev.2.2 (ix3 (0 : Fin 1) (0 : Fin 1) o) + ·) (Finset.sum_congr rfl fun r _ =>
      congrArg₂ (· * ·) (Blocks.etile_apply m c t r o) (Blocks.gtile_apply m c t r (0 : Fin 128)))

/-- After step n the three blocks hold the running totals of the tile sums over n's core. -/
theorem outs_eq (c : Dev nD) : ∀ (n : ℕ) (h : n < cfg0.N),
    (∀ o : Fin 256, (outsAt0 m c n h).1 (ix3 (0 : Fin 1) (0 : Fin 1) o) = acc (TE m c o) n)
    ∧ (∀ d : Fin 128, (outsAt0 m c n h).2.1 (ix3 (0 : Fin 1) (0 : Fin 1) d) = acc (TG m c d) n)
    ∧ (∀ o : Fin 256, (outsAt0 m c n h).2.2 (ix3 (0 : Fin 1) (0 : Fin 1) o) = acc (TP m c o) n)
  | 0, h => by
    have s := first_step m c ⟨0, h⟩ rfl
    exact ⟨fun o => (s.1 o).trans (acc_first _ 0 rfl).symm, fun d => (s.2.1 d).trans (acc_first _ 0 rfl).symm,
      fun o => (s.2.2 o).trans (acc_first _ 0 rfl).symm⟩
  | n + 1, h => by
    by_cases h0 : (n + 1) % 8 = 0
    · have s := first_step m c ⟨n + 1, h⟩ h0
      exact ⟨fun o => (s.1 o).trans (acc_first _ _ h0).symm, fun d => (s.2.1 d).trans (acc_first _ _ h0).symm,
        fun o => (s.2.2 o).trans (acc_first _ _ h0).symm⟩
    · have s := later_step m c ⟨n + 1, h⟩ h0
      have ih := outs_eq c n (Nat.lt_of_succ_lt h)
      refine ⟨fun o => (s.1 o).trans ?_, fun d => (s.2.1 d).trans ?_, fun o => (s.2.2 o).trans ?_⟩
      · rw [acc_next _ _ h0]; exact congrArg (· + TE m c o (n + 1)) (ih.1 o)
      · rw [acc_next _ _ h0]; exact congrArg (· + TG m c d (n + 1)) (ih.2.1 d)
      · rw [acc_next _ _ h0]; exact congrArg (· + TP m c o (n + 1)) (ih.2.2 o)

end Cov.Accum

end
-- ==== Proof.KernelArrays.lean ====
import proofs.«105265_j22574348108101_2_alg».proof.Proof.KernelAccum

/-! The three partial-sum arrays after the grid.

Each output array has one row per core; its block for step t is row t / 8, kept in place through the core's eight
steps and written back after the last (steps 7 and 15). So row c of each array ends holding the running total after
step 8c + 7: the sum of the tile sums over the core's eight steps. -/

noncomputable section

open scoped BigOperators

namespace Cov.Arrays

open Idealize.ShloMosaic Idealize.ShloMosaic.TcCoe Idealize.ShloMosaic.ValueIdx Idealize.SL.Sem
open Idealize.ShloMosaic.Pipeline (Dat)
open Cert.KernelIdeal Cert.KernelIdeal.Gen Cov.Blocks Cov.Accum

variable (m : (ℓ : Loc nD τ sig) → Buf (Elt Ideal) ℓ)

/-- The outputs' block indices, decided over the grid: row t / 8, the other two coordinates 0. -/
theorem idx_out : ∀ t : Fin cfg0.N,
    (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0) :=
  (by decide +kernel : ∀ t : Fin grid0.N, _)

/-! ## The error column sums -/

/-- Entry (core, 0, o) of the error column sums: the tile sums of the core's eight steps. -/
def sumErr (c : Dev nD) : S2x1x256.Idx → EReal := fun i => ∑ j : Fin 8, TE m c ⟨(i 2).val, (i 2).isLt⟩ ((i 0).val * 8 + j.val)

/-- A core's last step writes back its row of the error column sums. -/
theorem flushed2 (c : Dev nD) (t : Fin cfg0.N) (hf : (cfg0.win 2).flush t = true) :
    (dats m 0 c).flushed 2 t = ((cfg0.win 2).blk t).view.read (Elt Ideal) (sumErr m c) := by
  have h7 : t.val % 8 = 7 := (flush0_2 t).mp hf
  obtain ⟨e0, e1, e2⟩ := (idx_out t).1
  show (cfg0.win 2).cut (grid0.coords t) ((dats m 0 c).after 2 t) = _
  rw [after0_2]
  refine funext fun (j : S1x1x256.Idx) => ?_
  obtain ⟨a, b, o, rfl⟩ : ∃ (a : Fin 1) (b : Fin 1) (o : Fin 256), j = ix3 a b o := ⟨j 0, j 1, j 2, eq_ix3 j⟩
  obtain rfl : a = 0 := Subsingleton.elim _ _
  obtain rfl : b = 0 := Subsingleton.elim _ _
  show (outsAt0 m c t.val t.isLt).1 (ix3 (0 : Fin 1) (0 : Fin 1) o) = sumErr m c (((cfg0.win 2).blk t).view.emb (ix3 (0 : Fin 1) (0 : Fin 1) o))
  rw [(Accum.outs_eq m c t.val t.isLt).1 o]
  have hl := acc_last (TE m c o) (t.val / 8)
  rw [show t.val / 8 * 8 + 7 = t.val by omega] at hl
  rw [hl]
  unfold sumErr
  refine Finset.sum_congr rfl fun k _ => ?_
  refine congrArg₂ (TE m c) (Fin.ext ?_) ?_
  · show o.val = win0_2.index t (2 : Fin 3) * 256 + 1 * o.val
    rw [e2]; omega
  · show t.val / 8 * 8 + k.val = (win0_2.index t (0 : Fin 3) * 1 + 1 * 0) * 8 + k.val
    rw [e0]; omega

/-- An index of the array lies in step t's block iff each coordinate lies in the block's range on its axis. -/
theorem mem_blk2 (t : Fin cfg0.N) (i : S2x1x256.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v0_0).slice (win0_2.rect t)).set ↔ _
  rw [View.set_slice_whole, Rect.mem_set_unit]
  exact Iff.rfl

/-- The two cores' last steps cover the array, so after the grid it holds the error column sums. -/
theorem final2 (c : Dev nD) : (dats m 0 c).arrAt 2 cfg0.N = sumErr m c :=
  (dats m 0 c).arrAt_eq_of_cover 2 (sumErr m c) (flushed2 m c) fun i => by
    have h0 : (i 0).val < 2 := (i 0).isLt
    have h1 : (i 1).val < 1 := (i 1).isLt
    have h2 : (i 2).val < 256 := (i 2).isLt
    have hN : cfg0.N = 16 := N_0
    have hlt : (i 0).val * 8 + 7 < cfg0.N := by rw [hN]; omega
    refine ⟨⟨(i 0).val * 8 + 7, hlt⟩, (flush0_2 _).mpr (by show ((i 0).val * 8 + 7) % 8 = 7; omega), ?_⟩
    rw [mem_blk2]
    obtain ⟨e0, e1, e2⟩ := (idx_out ⟨(i 0).val * 8 + 7, hlt⟩).1
    intro a
    match a with
    | ⟨0, _⟩ => show win0_2.index ⟨(i 0).val * 8 + 7, hlt⟩ (0 : Fin 3) * 1 ≤ (i 0).val ∧ (i 0).val < win0_2.index ⟨(i 0).val * 8 + 7, hlt⟩ (0 : Fin 3) * 1 + 1
                rw [e0]; dsimp only; omega
    | ⟨1, _⟩ => show win0_2.index ⟨(i 0).val * 8 + 7, hlt⟩ (1 : Fin 3) * 1 ≤ (i 1).val ∧ (i 1).val < win0_2.index ⟨(i 0).val * 8 + 7, hlt⟩ (1 : Fin 3) * 1 + 1
                rw [e1]; omega
    | ⟨2, _⟩ => show win0_2.index ⟨(i 0).val * 8 + 7, hlt⟩ (2 : Fin 3) * 256 ≤ (i 2).val ∧ (i 2).val < win0_2.index ⟨(i 0).val * 8 + 7, hlt⟩ (2 : Fin 3) * 256 + 256
                rw [e2]; omega

/-! ## The embedding column sums -/

/-- Entry (core, 0, o) of the embedding column sums: the tile sums of the core's eight steps. -/
def sumEmb (c : Dev nD) : S2x1x128.Idx → EReal := fun i => ∑ j : Fin 8, TG m c ⟨(i 2).val, (i 2).isLt⟩ ((i 0).val * 8 + j.val)

/-- A core's last step writes back its row of the embedding column sums. -/
theorem flushed3 (c : Dev nD) (t : Fin cfg0.N) (hf : (cfg0.win 3).flush t = true) :
    (dats m 0 c).flushed 3 t = ((cfg0.win 3).blk t).view.read (Elt Ideal) (sumEmb m c) := by
  have h7 : t.val % 8 = 7 := (flush0_3 t).mp hf
  obtain ⟨e0, e1, e2⟩ := (idx_out t).2.1
  show (cfg0.win 3).cut (grid0.coords t) ((dats m 0 c).after 3 t) = _
  rw [after0_3]
  refine funext fun (j : S1x1x128.Idx) => ?_
  obtain ⟨a, b, o, rfl⟩ : ∃ (a : Fin 1) (b : Fin 1) (o : Fin 128), j = ix3 a b o := ⟨j 0, j 1, j 2, eq_ix3 j⟩
  obtain rfl : a = 0 := Subsingleton.elim _ _
  obtain rfl : b = 0 := Subsingleton.elim _ _
  show (outsAt0 m c t.val t.isLt).2.1 (ix3 (0 : Fin 1) (0 : Fin 1) o) = sumEmb m c (((cfg0.win 3).blk t).view.emb (ix3 (0 : Fin 1) (0 : Fin 1) o))
  rw [(Accum.outs_eq m c t.val t.isLt).2.1 o]
  have hl := acc_last (TG m c o) (t.val / 8)
  rw [show t.val / 8 * 8 + 7 = t.val by omega] at hl
  rw [hl]
  unfold sumEmb
  refine Finset.sum_congr rfl fun k _ => ?_
  refine congrArg₂ (TG m c) (Fin.ext ?_) ?_
  · show o.val = win0_3.index t (2 : Fin 3) * 128 + 1 * o.val
    rw [e2]; omega
  · show t.val / 8 * 8 + k.val = (win0_3.index t (0 : Fin 3) * 1 + 1 * 0) * 8 + k.val
    rw [e0]; omega

/-- An index of the array lies in step t's block iff each coordinate lies in the block's range on its axis. -/
theorem mem_blk3 (t : Fin cfg0.N) (i : S2x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl

/-- The two cores' last steps cover the array, so after the grid it holds the embedding column sums. -/
theorem final3 (c : Dev nD) : (dats m 0 c).arrAt 3 cfg0.N = sumEmb m c :=
  (dats m 0 c).arrAt_eq_of_cover 3 (sumEmb m c) (flushed3 m c) fun i => by
    have h0 : (i 0).val < 2 := (i 0).isLt
    have h1 : (i 1).val < 1 := (i 1).isLt
    have h2 : (i 2).val < 128 := (i 2).isLt
    have hN : cfg0.N = 16 := N_0
    have hlt : (i 0).val * 8 + 7 < cfg0.N := by rw [hN]; omega
    refine ⟨⟨(i 0).val * 8 + 7, hlt⟩, (flush0_3 _).mpr (by show ((i 0).val * 8 + 7) % 8 = 7; omega), ?_⟩
    rw [mem_blk3]
    obtain ⟨e0, e1, e2⟩ := (idx_out ⟨(i 0).val * 8 + 7, hlt⟩).2.1
    intro a
    match a with
    | ⟨0, _⟩ => show win0_3.index ⟨(i 0).val * 8 + 7, hlt⟩ (0 : Fin 3) * 1 ≤ (i 0).val ∧ (i 0).val < win0_3.index ⟨(i 0).val * 8 + 7, hlt⟩ (0 : Fin 3) * 1 + 1
                rw [e0]; dsimp only; omega
    | ⟨1, _⟩ => show win0_3.index ⟨(i 0).val * 8 + 7, hlt⟩ (1 : Fin 3) * 1 ≤ (i 1).val ∧ (i 1).val < win0_3.index ⟨(i 0).val * 8 + 7, hlt⟩ (1 : Fin 3) * 1 + 1
                rw [e1]; omega
    | ⟨2, _⟩ => show win0_3.index ⟨(i 0).val * 8 + 7, hlt⟩ (2 : Fin 3) * 128 ≤ (i 2).val ∧ (i 2).val < win0_3.index ⟨(i 0).val * 8 + 7, hlt⟩ (2 : Fin 3) * 128 + 128
                rw [e2]; omega

/-! ## The product sums -/

/-- Entry (core, 0, o) of the product sums: the tile sums of the core's eight steps. -/
def sumProd (c : Dev nD) : S2x1x256.Idx → EReal := fun i => ∑ j : Fin 8, TP m c ⟨(i 2).val, (i 2).isLt⟩ ((i 0).val * 8 + j.val)

/-- A core's last step writes back its row of the product sums. -/
theorem flushed4 (c : Dev nD) (t : Fin cfg0.N) (hf : (cfg0.win 4).flush t = true) :
    (dats m 0 c).flushed 4 t = ((cfg0.win 4).blk t).view.read (Elt Ideal) (sumProd m c) := by
  have h7 : t.val % 8 = 7 := (flush0_4 t).mp hf
  obtain ⟨e0, e1, e2⟩ := (idx_out t).2.2
  show (cfg0.win 4).cut (grid0.coords t) ((dats m 0 c).after 4 t) = _
  rw [after0_4]
  refine funext fun (j : S1x1x256.Idx) => ?_
  obtain ⟨a, b, o, rfl⟩ : ∃ (a : Fin 1) (b : Fin 1) (o : Fin 256), j = ix3 a b o := ⟨j 0, j 1, j 2, eq_ix3 j⟩
  obtain rfl : a = 0 := Subsingleton.elim _ _
  obtain rfl : b = 0 := Subsingleton.elim _ _
  show (outsAt0 m c t.val t.isLt).2.2 (ix3 (0 : Fin 1) (0 : Fin 1) o) = sumProd m c (((cfg0.win 4).blk t).view.emb (ix3 (0 : Fin 1) (0 : Fin 1) o))
  rw [(Accum.outs_eq m c t.val t.isLt).2.2 o]
  have hl := acc_last (TP m c o) (t.val / 8)
  rw [show t.val / 8 * 8 + 7 = t.val by omega] at hl
  rw [hl]
  unfold sumProd
  refine Finset.sum_congr rfl fun k _ => ?_
  refine congrArg₂ (TP m c) (Fin.ext ?_) ?_
  · show o.val = win0_4.index t (2 : Fin 3) * 256 + 1 * o.val
    rw [e2]; omega
  · show t.val / 8 * 8 + k.val = (win0_4.index t (0 : Fin 3) * 1 + 1 * 0) * 8 + k.val
    rw [e0]; omega

/-- An index of the array lies in step t's block iff each coordinate lies in the block's range on its axis. -/
theorem mem_blk4 (t : Fin cfg0.N) (i : S2x1x256.Idx) :
    i ∈ ((cfg0.win 4).blk t).view.set ↔ ∀ a : Fin 3, win0_4.index t a * S1x1x256.size a ≤ (i a).val ∧ (i a).val < win0_4.index t a * S1x1x256.size a + S1x1x256.size a := by
  show i ∈ ((View.whole main_v0_2).slice (win0_4.rect t)).set ↔ _
  rw [View.set_slice_whole, Rect.mem_set_unit]
  exact Iff.rfl

/-- The two cores' last steps cover the array, so after the grid it holds the product sums. -/
theorem final4 (c : Dev nD) : (dats m 0 c).arrAt 4 cfg0.N = sumProd m c :=
  (dats m 0 c).arrAt_eq_of_cover 4 (sumProd m c) (flushed4 m c) fun i => by
    have h0 : (i 0).val < 2 := (i 0).isLt
    have h1 : (i 1).val < 1 := (i 1).isLt
    have h2 : (i 2).val < 256 := (i 2).isLt
    have hN : cfg0.N = 16 := N_0
    have hlt : (i 0).val * 8 + 7 < cfg0.N := by rw [hN]; omega
    refine ⟨⟨(i 0).val * 8 + 7, hlt⟩, (flush0_4 _).mpr (by show ((i 0).val * 8 + 7) % 8 = 7; omega), ?_⟩
    rw [mem_blk4]
    obtain ⟨e0, e1, e2⟩ := (idx_out ⟨(i 0).val * 8 + 7, hlt⟩).2.2
    intro a
    match a with
    | ⟨0, _⟩ => show win0_4.index ⟨(i 0).val * 8 + 7, hlt⟩ (0 : Fin 3) * 1 ≤ (i 0).val ∧ (i 0).val < win0_4.index ⟨(i 0).val * 8 + 7, hlt⟩ (0 : Fin 3) * 1 + 1
                rw [e0]; dsimp only; omega
    | ⟨1, _⟩ => show win0_4.index ⟨(i 0).val * 8 + 7, hlt⟩ (1 : Fin 3) * 1 ≤ (i 1).val ∧ (i 1).val < win0_4.index ⟨(i 0).val * 8 + 7, hlt⟩ (1 : Fin 3) * 1 + 1
                rw [e1]; omega
    | ⟨2, _⟩ => show win0_4.index ⟨(i 0).val * 8 + 7, hlt⟩ (2 : Fin 3) * 256 ≤ (i 2).val ∧ (i 2).val < win0_4.index ⟨(i 0).val * 8 + 7, hlt⟩ (2 : Fin 3) * 256 + 256
                rw [e2]; omega

end Cov.Arrays

end
-- ==== Proof.LibSumTiles.lean ====
import Mathlib.Algebra.BigOperators.Fin
import Mathlib.Algebra.BigOperators.Intervals

/-!
# A sum over `a · b` consecutive rows is the sum over `a` tiles of `b` rows

General arithmetic for kernels that walk an array tile by tile and add each tile's sum to a running total: the total
over all `a · b` rows of any commutative monoid-valued function of the row number is the sum, over the `a` tiles, of
each tile's `b` rows; and the running total after the first `n + 1` tiles splits off its last tile.
-/

open scoped BigOperators

namespace Cert.LibSumTiles

/-- The rows `0 … a·b − 1` summed are the tiles `0 … a − 1` summed, each over its rows `t·b … t·b + b − 1`. -/
theorem sum_fin_mul {M : Type*} [AddCommMonoid M] (a b : ℕ) (g : ℕ → M) :
    ∑ k : Fin (a * b), g k.val = ∑ t : Fin a, ∑ r : Fin b, g (t.val * b + r.val) := by
  induction a with
  | zero => rw [Fin.sum_univ_eq_sum_range (fun k => g k) (0 * b)]; simp
  | succ a ih =>
    rw [Fin.sum_univ_castSucc (f := fun t : Fin (a + 1) => ∑ r : Fin b, g (t.val * b + r.val))]
    simp only [Fin.val_castSucc, Fin.val_last]
    rw [← ih, Fin.sum_univ_eq_sum_range (fun k => g k) ((a + 1) * b), Fin.sum_univ_eq_sum_range (fun k => g k) (a * b),
      Fin.sum_univ_eq_sum_range (fun r => g (a * b + r)) b, Nat.succ_mul, Finset.sum_range_add]

/-- The first `n + 2` tiles are the first `n + 1` and one more. -/
theorem sum_tiles_succ {M : Type*} [AddCommMonoid M] (n b : ℕ) (g : ℕ → M) :
    ∑ t : Fin (n + 2), ∑ r : Fin b, g (t.val * b + r.val)
      = (∑ t : Fin (n + 1), ∑ r : Fin b, g (t.val * b + r.val)) + ∑ r : Fin b, g ((n + 1) * b + r.val) := by
  rw [Fin.sum_univ_castSucc (f := fun t : Fin (n + 2) => ∑ r : Fin b, g (t.val * b + r.val))]
  simp only [Fin.val_castSucc, Fin.val_last]

end Cert.LibSumTiles
-- ==== Proof.CovSpec.lean ====
import Idealize.ShloMosaic.PureOps.Ideal
import Idealize.ShloMosaic.PureOps.Ideal.Laws
import Idealize.ShloMosaic.Lib.ValueIdx

/-! The covariance-residual error as plain sums over the extended reals.

e is the error matrix (131072 rows, 256 columns), g the embedding matrix (131072 rows, 128 columns, of which
only column 0 enters). For a column o of e:

* sumE e o = Σ_i e i o, sumG g = Σ_i g i 0, sumEG e g o = Σ_i e i o · g i 0;
* the two means divide these (started from the zero word) by the row count rows = 131072;
* colR is the centred product sum Σ_i (e i o - meanE) (g i 0 - meanG);
* colK is the raw product sum minus (rows · meanG) · meanE;
* result col = -(0 + Σ_o |col o|), with |a| = max a (-a).

Over finite entries colK = colR; the proof is in the module on the law. -/

noncomputable section

open scoped BigOperators

namespace Cov

open Idealize.ShloMosaic Idealize.ShloMosaic.ValueIdx

/-- The error matrix's shape. -/
abbrev SE : Shape := ⟨2, ![131072, 256]⟩
/-- The embedding matrix's shape. -/
abbrev SG : Shape := ⟨2, ![131072, 128]⟩

/-- The f32 zero word, at the ideal values. -/
abbrev zero : EReal := Ideal.ofBits .f32 0x00000000#32
/-- The row count 131072 = 2^17 as the f32 word both programs divide by. -/
abbrev rows : EReal := Ideal.ofBits .f32 0x48000000#32

/-- Column o of e summed over all rows. -/
def sumE (e : SE.Idx → EReal) (o : Fin 256) : EReal := ∑ i : Fin 131072, e (ix2 i o)
/-- Column 0 of g summed over all rows. -/
def sumG (g : SG.Idx → EReal) : EReal := ∑ i : Fin 131072, g (ix2 i (0 : Fin 128))
/-- The products of column o of e with column 0 of g, summed over all rows. -/
def sumEG (e : SE.Idx → EReal) (g : SG.Idx → EReal) (o : Fin 256) : EReal :=
  ∑ i : Fin 131072, e (ix2 i o) * g (ix2 i (0 : Fin 128))

/-- The mean of column o of e. -/
def meanE (e : SE.Idx → EReal) (o : Fin 256) : EReal := Ideal.div (zero + sumE e o) rows
/-- The mean of column 0 of g. -/
def meanG (g : SG.Idx → EReal) : EReal := Ideal.div (zero + sumG g) rows

/-- The centred product sum of column o: the reference's arrangement. -/
def colR (e : SE.Idx → EReal) (g : SG.Idx → EReal) (o : Fin 256) : EReal :=
  zero + ∑ i : Fin 131072, (e (ix2 i o) - meanE e o) * (g (ix2 i (0 : Fin 128)) - meanG g)

/-- The raw product sum less the product of the means scaled by the row count: the kernel's arrangement. -/
def colK (e : SE.Idx → EReal) (g : SG.Idx → EReal) (o : Fin 256) : EReal :=
  (zero + sumEG e g o) - (rows * meanG g) * meanE e o

/-- The scalar both programs end with: minus the sum of the columns' absolute values. -/
def result (col : Fin 256 → EReal) : EReal := -(zero + ∑ o : Fin 256, max (col o) (-(col o)))

end Cov

end
-- ==== Proof.KernelTotals.lean ====
import proofs.«105265_j22574348108101_2_alg».proof.Proof.KernelArrays
import proofs.«105265_j22574348108101_2_alg».proof.Proof.LibSumTiles
import proofs.«105265_j22574348108101_2_alg».proof.Proof.CovSpec

/-! The two cores' partial sums add up to the sums over all 131072 rows.

Row c of a partial-sum array is the sum over the core's eight steps of a tile sum, and a tile sum runs over 8192
consecutive rows; 2 cores of 8 steps are the 16 tiles, and 16 tiles of 8192 rows are the 131072 rows. Addition on
the extended reals is commutative and associative, so the regrouping needs no finiteness. -/

noncomputable section

open scoped BigOperators

namespace Cov.Totals

open Idealize.ShloMosaic Idealize.ShloMosaic.TcCoe Idealize.ShloMosaic.ValueIdx Idealize.SL.Sem
open Cert.KernelIdeal Cert.KernelIdeal.Gen Cov.Blocks Cov.Accum Cov.Arrays

variable (m : (ℓ : Loc nD τ sig) → Buf (Elt Ideal) ℓ)

/-- The error matrix's column o summed by row number is its column sum. -/
theorem rows_err (c : Dev nD) (o : Fin 256) : ∑ i : Fin 131072, rowE m c o i.val = Cov.sumE (errs m c) o := by
  unfold Cov.sumE
  refine Finset.sum_congr rfl fun i _ => ?_
  unfold rowE
  rw [dif_pos i.isLt]

/-- The embedding matrix's column 0 summed by row number is its column sum. -/
theorem rows_emb (c : Dev nD) : ∑ i : Fin 131072, rowG m c (0 : Fin 128) i.val = Cov.sumG (embs m c) := by
  unfold Cov.sumG
  refine Finset.sum_congr rfl fun i _ => ?_
  unfold rowG
  rw [dif_pos i.isLt]

/-- The products by row number sum to the product sum. -/
theorem rows_prod (c : Dev nD) (o : Fin 256) :
    ∑ i : Fin 131072, (fun k => rowE m c o k * rowG m c (0 : Fin 128) k) i.val = Cov.sumEG (errs m c) (embs m c) o := by
  unfold Cov.sumEG
  refine Finset.sum_congr rfl fun i _ => ?_
  show rowE m c o i.val * rowG m c (0 : Fin 128) i.val = _
  unfold rowE rowG
  rw [dif_pos i.isLt, dif_pos i.isLt]

/-- The two cores' error column sums add up to the whole column sum. -/
theorem total_err (c : Dev nD) (o : Fin 256) :
    ∑ k : Fin 2, sumErr m c (ix3 k (0 : Fin 1) o) = Cov.sumE (errs m c) o := by
  rw [← rows_err]
  have h1 : ∑ i : Fin 131072, rowE m c o i.val = ∑ t : Fin 16, ∑ r : Fin 8192, rowE m c o (t.val * 8192 + r.val) :=
    Cert.LibSumTiles.sum_fin_mul 16 8192 (rowE m c o)
  have h2 : ∑ t : Fin 16, TE m c o t.val = ∑ k : Fin 2, ∑ j : Fin 8, TE m c o (k.val * 8 + j.val) :=
    Cert.LibSumTiles.sum_fin_mul 2 8 (TE m c o)
  rw [h1]
  exact h2.symm

/-- The two cores' embedding sums of column 0 add up to the whole column sum. -/
theorem total_emb (c : Dev nD) :
    ∑ k : Fin 2, sumEmb m c (ix3 k (0 : Fin 1) (0 : Fin 128)) = Cov.sumG (embs m c) := by
  rw [← rows_emb]
  have h1 : ∑ i : Fin 131072, rowG m c (0 : Fin 128) i.val = ∑ t : Fin 16, ∑ r : Fin 8192, rowG m c (0 : Fin 128) (t.val * 8192 + r.val) :=
    Cert.LibSumTiles.sum_fin_mul 16 8192 (rowG m c (0 : Fin 128))
  have h2 : ∑ t : Fin 16, TG m c (0 : Fin 128) t.val = ∑ k : Fin 2, ∑ j : Fin 8, TG m c (0 : Fin 128) (k.val * 8 + j.val) :=
    Cert.LibSumTiles.sum_fin_mul 2 8 (TG m c (0 : Fin 128))
  rw [h1]
  exact h2.symm

/-- The two cores' product sums add up to the whole product sum. -/
theorem total_prod (c : Dev nD) (o : Fin 256) :
    ∑ k : Fin 2, sumProd m c (ix3 k (0 : Fin 1) o) = Cov.sumEG (errs m c) (embs m c) o := by
  rw [← rows_prod]
  have h1 : ∑ i : Fin 131072, (fun k => rowE m c o k * rowG m c (0 : Fin 128) k) i.val
      = ∑ t : Fin 16, ∑ r : Fin 8192, (fun k => rowE m c o k * rowG m c (0 : Fin 128) k) (t.val * 8192 + r.val) :=
    Cert.LibSumTiles.sum_fin_mul 16 8192 (fun k => rowE m c o k * rowG m c (0 : Fin 128) k)
  have h2 : ∑ t : Fin 16, TP m c o t.val = ∑ k : Fin 2, ∑ j : Fin 8, TP m c o (k.val * 8 + j.val) :=
    Cert.LibSumTiles.sum_fin_mul 2 8 (TP m c o)
  rw [h1]
  exact h2.symm

end Cov.Totals

end
-- ==== Proof.KernelTailDef.lean ====
import proofs.«105265_j22574348108101_2_alg».proof.Proof.Gen.KernelIdeal

/-! The host arithmetic after the grid, as one function of the three partial-sum arrays.

The grid leaves, per core, the error column sums A2, the embedding column sums A3 and the product sums A4. The host
adds the two cores' rows of each, divides the error sums and the embedding's column 0 by the row count, multiplies
that mean back by the row count and by the error means, subtracts the product from the product sums, and returns
minus the sum of the absolute values. -/

noncomputable section

namespace Cov.Tail

open Idealize.ShloMosaic
open Cert.KernelIdeal Cert.KernelIdeal.Facts₀ Cert.KernelIdeal.Facts

variable {F : FTy → Type} [FloatOps F]

/-- The host operations after the grid, composed. -/
def hostTail (A2 : FVec F S2x1x256 .f32) (A3 : FVec F S2x1x128 .f32) (A4 : FVec F S2x1x256 .f32) : FVec F S_ .f32 :=
  Host.negf (Host.reduceAdd
    (Host.absf (subf
      (Host.reduceAdd A4 (constant S_ .f32 0x00000000#32) reducesTo_S2x1x256_S256_d0_1 h_S_)
      (mulf
        (broadcastInDim S256 ![] bcast_S_S256
          (mulf (constant S_ .f32 0x48000000#32)
            (Host.divf
              (shapeCast S_ (extractStridedSlice S1 ![0]
                (Host.reduceAdd A3 (constant S_ .f32 0x00000000#32) reducesTo_S2x1x128_S128_d0_1 h_S_) slices_S128_S1_0) shapeCasts_S1_S_)
              (constant S_ .f32 0x48000000#32))))
        (Host.divf (Host.reduceAdd A2 (constant S_ .f32 0x00000000#32) reducesTo_S2x1x256_S256_d0_1 h_S_)
          (broadcastInDim S256 ![] bcast_S_S256 (constant S_ .f32 0x48000000#32))))))
    (constant S_ .f32 0x00000000#32) reducesTo_S256_S_d0 h_S_)

end Cov.Tail

end
-- ==== Proof.RefColumn.lean ====
import proofs.«105265_j22574348108101_2_alg».proof.Proof.Gen.ReferenceIdeal.Read
import proofs.«105265_j22574348108101_2_alg».proof.Proof.CovSpec
import Idealize.ShloMosaic.Lib.ValueIdx
import Idealize.ShloMosaic.PureOps.Ideal.Laws

/-! The reference program's result, read at the extended reals, is the specification's scalar over the
centred product sums.

The reference subtracts each column's mean from the error matrix and from the embedding matrix, takes
column 0 of the centred embedding, multiplies it into every column of the centred errors, sums each column
of products over the rows, and returns minus the sum of the absolute values of those 256 sums. Every stage
is read at an index; the layout stages only move indices, and each composed index function is a pair of
coordinates. -/

noncomputable section

open scoped BigOperators

namespace Cov.Ref

open Idealize.ShloMosaic Idealize.ShloMosaic.ValueIdx Cert.ReferenceIdeal Cert.ReferenceIdeal.Read

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {n : Nat} (f : (⟨1, ![n]⟩ : Shape).Idx → EReal) : ∑ j, f j = ∑ o : Fin n, f (ix1 o) :=
  (Equiv.sum_comp (idxEquiv1 (n := n)).symm f).symm

/-! ### The composed index functions as coordinates -/

/-- Row k of column o of the error matrix. -/
theorem idx_v0 (o : Fin 256) (k : Fin 131072) : idx_main_v0 (ix1 o : S256.Idx) k = ix2 k o :=
  funext fun a => Fin.ext (by match a with | ⟨0, _⟩ => rfl | ⟨1, _⟩ => rfl)

/-- The same for the column sums of the products. -/
theorem idx_v15 (o : Fin 256) (k : Fin 131072) : idx_main_v15 (ix1 o : S256.Idx) k = ix2 k o :=
  funext fun a => Fin.ext (by match a with | ⟨0, _⟩ => rfl | ⟨1, _⟩ => rfl)

/-- Row k of column c of the embedding matrix. -/
theorem idx_v6 (c : Fin 128) (k : Fin 131072) : idx_main_v6 (ix1 c : S128.Idx) k = ix2 k c :=
  funext fun a => Fin.ext (by match a with | ⟨0, _⟩ => rfl | ⟨1, _⟩ => rfl)

/-- The two broadcasts of the error means read entry (k, o) at column o. -/
theorem idx_v3_v4 (k : Fin 131072) (o : Fin 256) :
    idx_main_v3 (idx_main_v4 (ix2 k o : S131072x256.Idx)) = ix1 o :=
  funext fun a => Fin.ext (by match a with | ⟨0, _⟩ => rfl)

/-- The two broadcasts of the embedding means read entry (k, c) at column c. -/
theorem idx_v9_v10 (k : Fin 131072) (c : Fin 128) :
    idx_main_v9 (idx_main_v10 (ix2 k c : S131072x128.Idx)) = ix1 c :=
  funext fun a => Fin.ext (by match a with | ⟨0, _⟩ => rfl)

/-- The slice of column 0 broadcast along the columns reads entry (k, o) at (k, 0). -/
theorem idx_v12_v13 (k : Fin 131072) (o : Fin 256) :
    idx_main_v12 (idx_main_v13 (ix2 k o : S131072x256.Idx)) = ix2 k (0 : Fin 128) :=
  funext fun a => Fin.ext (by match a with | ⟨0, _⟩ => rfl | ⟨1, _⟩ => rfl)

/-! ### The two means -/

/-- The reference's mean of the error matrix's column o. -/
theorem v2_eq (x4 : (⟨S131072x256, .f32⟩ : BufTy).Contents (Elt Ideal)) (o : Fin 256) :
    val_main_v2 (F := Ideal) x4 (ix1 o) = Cov.meanE x4 o := by
  rw [val_main_v2_apply, val_main_v0_apply, val_main_v1_apply, val_main_cst_apply, val_main_cst_0_apply]
  simp only [Ideal.hostDivf_def, Ideal.ofBits_def, idx_v0]
  unfold Cov.meanE Cov.sumE
  rfl

/-- The reference's mean of the embedding matrix's column 0. -/
theorem v8_eq (x3 : (⟨S131072x128, .f32⟩ : BufTy).Contents (Elt Ideal)) :
    val_main_v8 (F := Ideal) x3 (ix1 (0 : Fin 128)) = Cov.meanG x3 := by
  rw [val_main_v8_apply, val_main_v6_apply, val_main_v7_apply, val_main_cst_1_apply, val_main_cst_2_apply]
  simp only [Ideal.hostDivf_def, Ideal.ofBits_def, idx_v6]
  unfold Cov.meanG Cov.sumG
  rfl

/-! ### One entry of the product matrix, one column sum, the result -/

/-- Entry (k, o) of the product matrix: the centred error times the centred embedding of column 0. -/
theorem v14_eq (x3 : (⟨S131072x128, .f32⟩ : BufTy).Contents (Elt Ideal))
    (x4 : (⟨S131072x256, .f32⟩ : BufTy).Contents (Elt Ideal)) (k : Fin 131072) (o : Fin 256) :
    val_main_v14 (F := Ideal) x3 x4 (ix2 k o)
      = (x4 (ix2 k o) - Cov.meanE x4 o) * (x3 (ix2 k (0 : Fin 128)) - Cov.meanG x3) := by
  rw [val_main_v14_apply, val_main_v5_apply, val_main_v4_apply, val_main_v3_apply, idx_v3_v4, v2_eq,
    val_main_v13_apply, val_main_v12_apply, idx_v12_v13, val_main_v11_apply, val_main_v10_apply,
    val_main_v9_apply, idx_v9_v10, v8_eq]
  simp only [Ideal.mulf_def, Ideal.subf_def]

/-- The reference's sum of column o of the products is the centred product sum. -/
theorem v15_eq (x3 : (⟨S131072x128, .f32⟩ : BufTy).Contents (Elt Ideal))
    (x4 : (⟨S131072x256, .f32⟩ : BufTy).Contents (Elt Ideal)) (o : Fin 256) :
    val_main_v15 (F := Ideal) x3 x4 (ix1 o) = Cov.colR x4 x3 o := by
  rw [val_main_v15_apply, val_main_cst_3_apply]
  unfold Cov.colR
  refine congrArg₂ (· + ·) rfl (Finset.sum_congr rfl fun k _ => ?_)
  rw [idx_v15, v14_eq]

/-- The reference's result is minus the sum of the absolute values of the 256 centred product sums. -/
theorem ref_value (x3 : (⟨S131072x128, .f32⟩ : BufTy).Contents (Elt Ideal))
    (x4 : (⟨S131072x256, .f32⟩ : BufTy).Contents (Elt Ideal)) :
    val_main_v18 (F := Ideal) x3 x4 = fun _ => Cov.result (Cov.colR x4 x3) := by
  funext i
  rw [val_main_v18_apply, val_main_v17_apply, val_main_cst_4_apply, sum_idx1]
  unfold Cov.result
  rw [Ideal.hostNegf_def, Ideal.negf_def]
  refine congrArg Neg.neg (congrArg₂ (· + ·) rfl (Finset.sum_congr rfl fun o _ => ?_))
  rw [val_main_v16_apply, v15_eq, Ideal.hostAbsf_def, Ideal.absf_def]

end Cov.Ref

end
-- ==== Proof.KernelTail.lean ====
import proofs.«105265_j22574348108101_2_alg».proof.Proof.KernelTailDef
import proofs.«105265_j22574348108101_2_alg».proof.Proof.CovSpec
import proofs.«105265_j22574348108101_2_alg».proof.Proof.RefColumn
import Idealize.ShloMosaic.Lib.ValueIdx
import Idealize.ShloMosaic.Lib.ValueLayout
import Idealize.ShloMosaic.Lib.Pipeline.Value
import Idealize.ShloMosaic.PureOps.Ideal.Laws

/-! The host arithmetic after the grid, read at the extended reals.

Each of the three partial-sum arrays has two rows, one per core. Summing a [2, 1, C] array over its first two axes
gives, at column o, the start value plus the two rows' entries at o: the indices that drop to o are exactly
(0, 0, o) and (1, 0, o). The remaining operations act entry by entry: the scalar broadcasts read the scalar at
every column, the slice and reshape read entry 0 of the embedding sums, and the last sum runs over all 256 columns.
Put together, the composed function is the specification's scalar over the columns
(zero + Σ_c A4 c o) - (rows · ((zero + Σ_c A3 c 0) / rows)) · ((zero + Σ_c A2 c o) / rows). -/

noncomputable section

open scoped BigOperators

namespace Cov.Tail

open Idealize.ShloMosaic Idealize.ShloMosaic.ValueIdx
open Cert.KernelIdeal Cert.KernelIdeal.Facts₀ Cert.KernelIdeal.Facts

section Pair
variable {C : ℕ} (h : (⟨3, ![2, 1, C]⟩ : Shape).ReducesTo [0, 1] ⟨1, ![C]⟩)

/-- Dropping axes 0 and 1 of (c, 0, o) leaves o. -/
theorem drop_ix3 (c : Fin 2) (o : Fin C) : h.drop (ix3 c (0 : Fin 1) o) = ix1 o := by
  funext b
  match b with
  | ⟨0, _⟩ => rfl

/-- An index that drops to o is (its axis-0 coordinate, 0, o). -/
theorem eq_ix3_of_drop (i : (⟨3, ![2, 1, C]⟩ : Shape).Idx) (o : Fin C) (hd : h.drop i = ix1 o) :
    i = ix3 (i 0 : Fin 2) (0 : Fin 1) o := by
  funext a
  match a with
  | ⟨0, _⟩ => rfl
  | ⟨1, _⟩ => exact Subsingleton.elim (α := Fin 1) _ _
  | ⟨2, _⟩ => exact Fin.ext (congrArg Fin.val (congrFun hd 0))

/-- The two indices of a [2, 1, C] array over column o. -/
def pairEmb (o : Fin C) : Fin 2 ↪ (⟨3, ![2, 1, C]⟩ : Shape).Idx :=
  ⟨fun c => ix3 c (0 : Fin 1) o, fun c c' e => congrFun e 0⟩

/-- The indices that drop to column o are exactly the two rows' entries at o. -/
theorem filter_drop (o : Fin C) :
    Finset.univ.filter (fun i : (⟨3, ![2, 1, C]⟩ : Shape).Idx => h.drop i = ix1 o) = Finset.univ.map (pairEmb o) := by
  ext i
  simp only [Finset.mem_filter, Finset.mem_univ, true_and, Finset.mem_map, pairEmb]
  exact ⟨fun hd => ⟨(i 0 : Fin 2), (eq_ix3_of_drop h i o hd).symm⟩, fun ⟨c, hc⟩ => hc ▸ drop_ix3 h c o⟩

/-- The sum over axes 0 and 1 of a [2, 1, C] array, at column o: the start value plus the two rows' entries. -/
theorem hostReduceAdd_pair (x : (⟨3, ![2, 1, C]⟩ : Shape).Idx → EReal) (init : EReal) (o : Fin C) :
    Ideal.hostReduceAdd h x init (ix1 o) = init + ∑ c : Fin 2, x (ix3 c (0 : Fin 1) o) := by
  unfold Ideal.hostReduceAdd
  rw [filter_drop, Finset.sum_map]
  rfl

end Pair

/-- Every index of a one-entry array is the same. -/
theorem S1_idx (a b : S1.Idx) : a = b :=
  funext fun d => match d with | ⟨0, _⟩ => Subsingleton.elim (α := Fin 1) _ _

/-- A scalar broadcast along the 256 columns reads the scalar at every column. -/
theorem bcast_apply {α : Type} (hb : S_.BroadcastsInDim S256 (![] : Fin 0 → Fin S256.rank)) (w : S_.Idx → α) (j : S256.Idx) :
    broadcastInDim S256 ![] hb w j = w ix0 :=
  broadcastInDim_apply _ hb w j ix0 fun a => a.elim0

/-- The first entry of a 128-vector, sliced out and reshaped to a scalar, is entry 0. -/
theorem slice0_apply {α : Type} (hs : S128.Slices ![0] S1) (hc : S1.ShapeCasts S_) (g : S128.Idx → α) (k : S_.Idx) :
    shapeCast S_ (extractStridedSlice S1 ![0] g hs) hc k = g (ix1 (0 : Fin 128)) := by
  show extractStridedSlice S1 ![0] g hs (Shape.reshapeEquiv hc k) = _
  rw [S1_idx (Shape.reshapeEquiv hc k) (ix1 (0 : Fin 1))]
  exact extractStridedSlice_apply _ g hs _ _ fun a => match a with | ⟨0, _⟩ => rfl

/-- The composed host operations return the specification's scalar over the columns built from the three
    partial-sum arrays. -/
theorem hostTail_apply (A2 : FVec Ideal S2x1x256 .f32) (A3 : FVec Ideal S2x1x128 .f32) (A4 : FVec Ideal S2x1x256 .f32) :
    hostTail (F := Ideal) A2 A3 A4 = fun _ => Cov.result (fun o =>
      (Cov.zero + ∑ c : Fin 2, A4 (ix3 c (0 : Fin 1) o))
        - (Cov.rows * Ideal.div (Cov.zero + ∑ c : Fin 2, A3 (ix3 c (0 : Fin 1) (0 : Fin 128))) Cov.rows)
          * Ideal.div (Cov.zero + ∑ c : Fin 2, A2 (ix3 c (0 : Fin 1) o)) Cov.rows) := by
  funext i
  unfold hostTail Cov.result
  simp only [Host.negf, Host.reduceAdd, Ideal.hostReduceAdd_def, Ideal.hostNegf_def, Ideal.negf_def]
  rw [Ideal.hostReduceAdd_total _ (fun b => b.elim0), Cov.Ref.sum_idx1]
  refine congrArg Neg.neg (congrArg₂ (· + ·) rfl (Finset.sum_congr rfl fun o _ => ?_))
  simp only [Host.absf, Host.divf, Ideal.hostAbsf_def, Ideal.absf_def, Ideal.hostDivf_def, subf_apply, mulf_apply,
    constant_apply, hostReduceAdd_pair]
  rw [bcast_apply, bcast_apply, mulf_apply, constant_apply]
  simp only [Host.divf, Ideal.hostDivf_def, constant_apply]
  rw [slice0_apply, hostReduceAdd_pair]

end Cov.Tail

end
-- ==== Proof.KernelRun.lean ====
import proofs.«105265_j22574348108101_2_alg».proof.Proof.KernelTotals
import proofs.«105265_j22574348108101_2_alg».proof.Proof.KernelTail
import Idealize.ShloMosaic.Lib.StableHlo.Run
import Idealize.ShloMosaic.Lib.Tactic

/-! The idealized kernel's run: its result is the specification's scalar over the kernel's arrangement of a column.

After the grid the three partial-sum arrays hold the per-core sums; the host operations after it add the cores' rows,
which gives the sums over all rows, and combine them as the kernel's arrangement does. -/

noncomputable section

open scoped BigOperators

namespace Cov.Run

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cov.Blocks

variable (m : (ℓ : Loc nD τ sig) → Buf (Elt Ideal) ℓ) (ρ : Dev nD → PrngReg)

set_option maxHeartbeats 2000000 in
/-- The host operations after the grid, run on the arrays the grid leaves, give the composed tail of those arrays. -/
theorem tail_eq (c : Dev nD) :
    Pipeline.afterTail₀ cfgs (dats m) 0 (V0 m) [hostOps1] c main_v15
      = Tail.hostTail (F := Ideal) ((dats m 0 c).arrAt 2 cfg0.N) ((dats m 0 c).arrAt 3 cfg0.N) ((dats m 0 c).arrAt 4 cfg0.N) := by
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v0_2)
      = (dats m 0 c).arrAt 4 cfg0.N := Pipeline.withArrays_arr spec0 launch0.win.arr_inj c _ _ 4
  unfold Pipeline.afterTail₀
  show StableHlo.after hostOps1 _ (Proc.devRef .tc main_v15) = _
  after_results
  rw [e2, e3, e4]
  rfl

/-- The result buffer after the run: minus the sum over the columns of the absolute value of the kernel's column. -/
theorem value (c : Dev nD) :
    Pipeline.afterTail₀ cfgs (dats m) 0 (V0 m) [hostOps1] c main_v15
      = fun _ => Cov.result (Cov.colK (errs m c) (embs m c)) := by
  rw [tail_eq m c, Arrays.final2 m c, Arrays.final3 m c, Arrays.final4 m c, Tail.hostTail_apply]
  funext _
  unfold Cov.colK Cov.meanE Cov.meanG
  rw [Totals.total_emb m c]
  simp only [Totals.total_err m c, Totals.total_prod m c]

/-- Every weakly fair execution of the idealized kernel terminates with that result and its arguments unchanged. -/
theorem run : θ_run defs (onTc (τ := τ) (main (F := Ideal))) ⟨m, fun _ => 0, ρ⟩ (fun r => ∀ c : Dev nD,
      r.2.mem ((c.tc : Thread nD τ).loc main_v15) = (fun _ => Cov.result (Cov.colK (errs m c) (embs m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v15 (Pipeline.mem_restRefs_of main_v15 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 0).trans (((dats m 0 c).arrAt_in 0 rfl _).trans ((A_eq m c 0).trans (V_main_arg4 m c)))⟩)
    (run_main m ρ)

end Cov.Run

end
-- ==== Proof.FiniteInputs.lean ====
import proofs.«105265_j22574348108101_2_alg».proof.Defs
import Idealize.ShloMosaic.Lib.ReduceAll
import Idealize.ShloMosaic.Lib.ValueIdx

/-! The precondition makes every entry of the two matrices a real number.

The precondition is one bit: for each of the five arguments x, the conjunction over all entries of
|x| < +∞ (with |x| = max x (-x) and +∞ the f32 word 0x7F800000), and the five conjunctions and-ed together.
When that bit is 1, each and-ed part is 1, so each entry's comparison is 1, so |x| < +∞ at each entry;
an extended real with |x| < +∞ is neither +∞ nor -∞, hence a real. Stated for the embedding matrix
(131072 by 128) and the error matrix (131072 by 256). -/

noncomputable section

namespace Cov.Finite

open Idealize.ShloMosaic Idealize.ShloMosaic.ValueIdx Idealize.SL.Sem

/-- The scalar shape has a single index. -/
instance : Subsingleton Cert.Pre_finite_inputs.S_.Idx := ⟨fun a b => funext fun d => d.elim0⟩

/-- The f32 word 0x7F800000 denotes +∞. -/
theorem inf_word : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real x with |x| < +∞, where |x| = max x (-x), is a real number:
    x = +∞ gives |x| = +∞, and x = -∞ gives -x = +∞ and again |x| = +∞. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h1 : BitVec.ofBool (decide (max x (-x) < Ideal.ofBits .f32 0x7F800000#32)) = 1#1 := h
  rw [ofBool_eq_one, decide_eq_true_eq, inf_word] at h1
  induction x using EReal.rec with
  | bot =>
    rw [EReal.neg_bot, max_eq_right bot_le] at h1
    exact absurd h1 (lt_irrefl _)
  | coe r => exact ⟨r, rfl⟩
  | top =>
    rw [max_eq_left le_top] at h1
    exact absurd h1 (lt_irrefl _)

/-- Under the precondition every entry of the embedding matrix and of the error matrix is a real number. -/
theorem finite_of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal)) := by
  -- the precondition's one word, read at the scalar index, is a conjunction of five "all entries finite"
  have e := congrFun (h c) ix0
  dsimp only [Cert.Pre_finite_inputs.fn, Cert.Pre_finite_inputs.fn_part1] at e
  obtain ⟨e0123, e4⟩ := IntOp.andi_eq_one.1 e
  obtain ⟨-, e3⟩ := IntOp.andi_eq_one.1 e0123
  refine ⟨fun i => ?_, fun i => ?_⟩
  · exact real_of_abs_lt_inf _ (Host.reduce_andi_all _ _ _ _ ix0 e3 i)
  · exact real_of_abs_lt_inf _ (Host.reduce_andi_all _ _ _ _ ix0 e4 i)

/-- Every entry of the embedding matrix, read by row and column, is a real number. -/
theorem emb_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 131072) (k : Fin 128) :
    ∃ r : ℝ, m ((c.tc : Thread Cert.KernelIdeal.nD Cert.KernelIdeal.τ).loc Cert.KernelIdeal.main_arg3) (ix2 i k) = (r : EReal) :=
  (finite_of_pre m h c).1 (ix2 i k)

/-- Every entry of the error matrix, read by row and column, is a real number. -/
theorem err_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Fin 131072) (o : Fin 256) :
    ∃ r : ℝ, m ((c.tc : Thread Cert.KernelIdeal.nD Cert.KernelIdeal.τ).loc Cert.KernelIdeal.main_arg4) (ix2 i o) = (r : EReal) :=
  (finite_of_pre m h c).2 (ix2 i o)

end Cov.Finite

end
-- ==== Proof.CovLaw.lean ====
import Mathlib.Data.EReal.Basic
import Mathlib.Algebra.BigOperators.Ring.Finset
import Mathlib.Algebra.BigOperators.Field

/-! The covariance identity over the reals: a centred product sum against the raw product sum. -/

namespace CovLaw

open Finset

/-- For real columns `e`, `g` over a finite index set of `n ≠ 0` rows,
    `Σ (e i - E/n) (g i - G/n) = Σ e i g i - (n (G/n)) (E/n)`, with `E = Σ e`, `G = Σ g`. -/
theorem centred_sum {ι : Type*} [Fintype ι] (e g : ι → ℝ) (n : ℝ) (hn : n ≠ 0)
    (hcard : (Fintype.card ι : ℝ) = n) :
    ∑ i, (e i - (∑ j, e j) / n) * (g i - (∑ j, g j) / n)
      = (∑ i, e i * g i) - (n * ((∑ j, g j) / n)) * ((∑ j, e j) / n) := by
  have h1 : ∀ i, (e i - (∑ j, e j) / n) * (g i - (∑ j, g j) / n)
      = e i * g i - e i * ((∑ j, g j) / n) - ((∑ j, e j) / n) * g i
        + ((∑ j, e j) / n) * ((∑ j, g j) / n) := fun i => by ring
  simp only [h1, Finset.sum_add_distrib, Finset.sum_sub_distrib, ← Finset.sum_mul, ← Finset.mul_sum,
    Finset.sum_const, Finset.card_univ, nsmul_eq_mul, hcard]
  field_simp
  ring

end CovLaw
-- ==== Proof.CovBridge.lean ====
import proofs.«105265_j22574348108101_2_alg».proof.Proof.CovSpec
import proofs.«105265_j22574348108101_2_alg».proof.Proof.CovLaw
import Idealize.ShloMosaic.Lib.ValueIdx
import Idealize.ShloMosaic.PureOps.Ideal.Laws

/-! Over finite entries the two arrangements of a column agree.

When every entry that enters is the coercion of a real, each of the sums, means and products of the
specification is the coercion of the corresponding real expression: a finite sum of coercions is the coercion
of the sum, division by the row count is multiplication by its reciprocal, and products and differences of
coercions are coercions. Both arrangements are then coercions of real expressions, and the identity over the
reals equates those. -/

noncomputable section

open scoped BigOperators

namespace Cov

open Idealize.ShloMosaic Idealize.ShloMosaic.ValueIdx

/-- A finite sum of coercions of reals is the coercion of the sum. -/
theorem coe_sum {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The zero word denotes 0. -/
theorem zero_eq : Cov.zero = 0 := Ideal.ofBits_zero_f32

/-- The word 0x48000000 denotes 2^17 = 131072. -/
theorem rows_eq : Cov.rows = ((131072 : ℝ) : EReal) := by
  show Ideal.ofBits .f32 0x48000000#32 = ((131072 : ℝ) : EReal)
  simp [Ideal.ofBits, Ideal.ieee, -EReal.coe_mul]; norm_num

/-- Over finite entries the raw product sum less the scaled product of the means is the centred product sum. -/
theorem colK_eq_colR (e : Cov.SE.Idx → EReal) (g : Cov.SG.Idx → EReal)
    (he : ∀ (i : Fin 131072) (o : Fin 256), ∃ r : ℝ, e (ix2 i o) = (r : EReal))
    (hg : ∀ i : Fin 131072, ∃ r : ℝ, g (ix2 i (0 : Fin 128)) = (r : EReal)) (o : Fin 256) :
    Cov.colK e g o = Cov.colR e g o := by
  choose er her using fun i => he i o
  choose gr hgr using hg
  have hn : (131072 : ℝ) ≠ 0 := by norm_num
  have hcard : (Fintype.card (Fin 131072) : ℝ) = 131072 := by rw [Fintype.card_fin]; norm_num
  -- the three sums
  have hE : Cov.sumE e o = ((∑ i, er i : ℝ) : EReal) := by
    unfold Cov.sumE
    rw [← coe_sum]
    exact Finset.sum_congr rfl fun i _ => her i
  have hG : Cov.sumG g = ((∑ i, gr i : ℝ) : EReal) := by
    unfold Cov.sumG
    rw [← coe_sum]
    exact Finset.sum_congr rfl fun i _ => hgr i
  have hP : Cov.sumEG e g o = ((∑ i, er i * gr i : ℝ) : EReal) := by
    unfold Cov.sumEG
    rw [← coe_sum]
    exact Finset.sum_congr rfl fun i _ => by rw [her i, hgr i, EReal.coe_mul]
  -- the two means
  have hmE : Cov.meanE e o = (((∑ i, er i) / 131072 : ℝ) : EReal) := by
    unfold Cov.meanE
    rw [hE, zero_eq, zero_add, rows_eq, Ideal.div_coe hn, ← EReal.coe_mul, mul_one_div]
  have hmG : Cov.meanG g = (((∑ i, gr i) / 131072 : ℝ) : EReal) := by
    unfold Cov.meanG
    rw [hG, zero_eq, zero_add, rows_eq, Ideal.div_coe hn, ← EReal.coe_mul, mul_one_div]
  -- the two arrangements
  have hR : Cov.colR e g o
      = ((∑ i, (er i - (∑ j, er j) / 131072) * (gr i - (∑ j, gr j) / 131072) : ℝ) : EReal) := by
    unfold Cov.colR
    rw [zero_eq, zero_add, ← coe_sum]
    exact Finset.sum_congr rfl fun i _ => by
      rw [her i, hgr i, hmE, hmG, ← EReal.coe_sub, ← EReal.coe_sub, ← EReal.coe_mul]
  have hK : Cov.colK e g o
      = (((∑ i, er i * gr i) - (131072 * ((∑ j, gr j) / 131072)) * ((∑ j, er j) / 131072) : ℝ) : EReal) := by
    unfold Cov.colK
    rw [zero_eq, zero_add, hP, rows_eq, hmG, hmE, ← EReal.coe_mul, ← EReal.coe_mul, ← EReal.coe_sub]
  rw [hK, hR, CovLaw.centred_sum er gr 131072 hn hcard]

end Cov

end
-- ==== Proof.lean ====
/- The covariance-residual error: a grid kernel against its plain reference, at the ideal values.

   With e the error matrix (131072 rows, 256 columns) and g the embedding matrix (131072 rows, 128 columns), both
   programs return minus the sum over the columns o of e of the absolute value of a column quantity. The reference
   centres both matrices by their column means and sums the products of the centred column o of e with the centred
   column 0 of g. The kernel streams the rows in 16 tiles of 8192 over a grid of 2 cores by 8 steps, accumulating per
   core the column sums of e, the column sums of g and the sums of e's columns times g's column 0; the host adds the
   two cores' rows and forms the raw product sum minus (rows times the mean of g's column 0) times the mean of e's
   column. Over finite entries the two column quantities are equal: expanding the centred product, the two cross
   terms and the product of the means collapse because a column's sum is the row count times its mean. The expansion
   uses distributivity, which the extended reals have only away from the infinities, so the precondition that every
   input entry is finite is used exactly there; the regrouping of the sums by tiles, steps and cores uses only that
   addition is commutative and associative.

   The modules: CovSpec states the column quantities and the final scalar; CovLaw and CovBridge prove the identity over
   the reals and carry it to finite extended reals; KernelPieces, KernelStep, KernelBlocks, KernelAccum, KernelArrays,
   KernelTotals, KernelTailDef, KernelTail and KernelRun read the kernel's result off its run; RefColumn reads the
   reference's result; FiniteInputs reads finiteness off the precondition. The idealization rewrote no operation, so
   the kernel's agreement with its idealization is trivial; the three frames are the generated ones. -/
import proofs.«105265_j22574348108101_2_alg».proof.Defs
import proofs.«105265_j22574348108101_2_alg».proof.Proof.Gen.Kernel
import proofs.«105265_j22574348108101_2_alg».proof.Proof.Gen.Kernel.Skeleton
import proofs.«105265_j22574348108101_2_alg».proof.Proof.Gen.Kernel.Launch
import proofs.«105265_j22574348108101_2_alg».proof.Proof.Gen.Kernel.Points
import proofs.«105265_j22574348108101_2_alg».proof.Proof.Gen.Kernel.Frame
import proofs.«105265_j22574348108101_2_alg».proof.Proof.Gen.KernelIdeal
import proofs.«105265_j22574348108101_2_alg».proof.Proof.Gen.KernelIdeal.Skeleton
import proofs.«105265_j22574348108101_2_alg».proof.Proof.Gen.KernelIdeal.Launch
import proofs.«105265_j22574348108101_2_alg».proof.Proof.Gen.KernelIdeal.Points
import proofs.«105265_j22574348108101_2_alg».proof.Proof.Gen.KernelIdeal.Frame
import proofs.«105265_j22574348108101_2_alg».proof.Proof.Gen.ReferenceIdeal
import proofs.«105265_j22574348108101_2_alg».proof.Proof.Gen.ReferenceIdeal.Run
import proofs.«105265_j22574348108101_2_alg».proof.Proof.Gen.ReferenceIdeal.Read
import proofs.«105265_j22574348108101_2_alg».proof.Proof.Gen.Pre_finite_inputs
import proofs.«105265_j22574348108101_2_alg».proof.Proof.KernelRun
import proofs.«105265_j22574348108101_2_alg».proof.Proof.RefColumn
import proofs.«105265_j22574348108101_2_alg».proof.Proof.FiniteInputs
import proofs.«105265_j22574348108101_2_alg».proof.Proof.CovBridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no grid: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, finite by the precondition, the kernel ends at the scalar over its own
    arrangement of each column and the reference at the scalar over the centred arrangement; the two arrangements
    agree column by column over finite entries. -/
theorem algebraic : Cert.algebraic_KernelIdeal_ReferenceIdeal := by
  intro m ρ m' ρ' hpre hagree
  refine ⟨fun c => fun _ => Cov.result (Cov.colK (Cov.Blocks.errs m c) (Cov.Blocks.embs m c)), Cov.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).2.2.2.1, (hagree c).2.2.2.2]
  refine (Cov.Ref.ref_value (Cov.Blocks.embs m c) (Cov.Blocks.errs m c)).trans ?_
  funext _
  refine congrArg Cov.result (funext fun o => ?_)
  exact (Cov.colK_eq_colR _ _ (fun i o' => Cov.Finite.err_real m hpre c i o') (fun i => Cov.Finite.emb_real m hpre c i 0) o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
